-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x6 : Shape := ⟨2, ![600000, 6]⟩
abbrev S2x600000 : Shape := ⟨2, ![2, 600000]⟩
abbrev S128x6 : Shape := ⟨2, ![128, 6]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x6 : S_.BroadcastsInDim S600000x6 (![] : Fin 0 → Fin S600000x6.rank)
  reducesTo_S600000x6_S_d0_1 : S600000x6.ReducesTo [0, 1] S_
  bcast_S_S128x6 : S_.BroadcastsInDim S128x6 (![] : Fin 0 → Fin S128x6.rank)
  reducesTo_S128x6_S_d0_1 : S128x6.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : FVec F S600000x6 .f32) (main_arg2 : IVec S2x600000 32) (main_arg3 : FVec F S128x6 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x6 .f32 := Host.absf main_arg1
  let main_cst_0 : FVec F S_ .f32 := constant S_ .f32 0x7F800000#32
  let main_v5 : FVec F S600000x6 .f32 := broadcastInDim S600000x6 ![] bcast_S_S600000x6 main_cst_0
  let main_v6 : IVec S600000x6 1 := cmpf .olt main_v4 main_v5
  let main_c_1 : IVec S_ 1 := constantI S_ 1 1#1
  let main_v7 : IVec S_ 1 := (fun x v => Host.reduce IntOp.andi x v reducesTo_S600000x6_S_d0_1 h_S_) main_v6 main_c_1
  let main_v8 : IVec S_ 1 := andi main_v3 main_v7
  let main_v9 : FVec F S128x6 .f32 := Host.absf main_arg3
  let main_cst_2 : FVec F S_ .f32 := constant S_ .f32 0x7F800000#32
  let main_v10 : FVec F S128x6 .f32 := broadcastInDim S128x6 ![] bcast_S_S128x6 main_cst_2
  let main_v11 : IVec S128x6 1 := cmpf .olt main_v9 main_v10
  let main_c_3 : IVec S_ 1 := constantI S_ 1 1#1
  let main_v12 : IVec S_ 1 := (fun x v => Host.reduce IntOp.andi x v reducesTo_S128x6_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S600000x6 : Shape := ⟨2, ![600000, 6]⟩
abbrev S2x600000 : Shape := ⟨2, ![2, 600000]⟩
abbrev S128x6 : Shape := ⟨2, ![128, 6]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S6000x128 : Shape := ⟨2, ![6000, 128]⟩
abbrev S6000x6 : Shape := ⟨2, ![6000, 6]⟩
abbrev S6x128 : Shape := ⟨2, ![6, 128]⟩
abbrev S1x128 : Shape := ⟨2, ![1, 128]⟩
abbrev S5000x128 : Shape := ⟨2, ![5000, 128]⟩

abbrev nBuf : Space → Nat
  | .hbm => 36
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S600000x6, .f32⟩
  | .hbm, ⟨2, _⟩ => ⟨S2x600000, .i32⟩
  | .hbm, ⟨3, _⟩ => ⟨S128x6, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S600000x128, .f32⟩
  | .hbm, ⟨22, _⟩ => ⟨S_, .f32⟩
  | .hbm, ⟨23, _⟩ => ⟨S50000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S50000x128, .f32⟩
  | .hbm, ⟨33, _⟩ => ⟨S1x128, .f32⟩
  | .hbm, ⟨34, _⟩ => ⟨S1x128, .f32⟩
  | .hbm, ⟨35, _⟩ => ⟨S50000x128, .f32⟩
  | .local _ .vmem, ⟨0, _⟩ => ⟨S6000x128, .f32⟩
  | .local _ .vmem, ⟨1, _⟩ => ⟨S6000x128, .f32⟩
  | .local _ .vmem, ⟨2, _⟩ => ⟨S6000x6, .f32⟩
  | .local _ .vmem, ⟨3, _⟩ => ⟨S6000x6, .f32⟩
  | .local _ .vmem, ⟨4, _⟩ => ⟨S128x6, .f32⟩
  | .local _ .vmem, ⟨5, _⟩ => ⟨S6000x128, .f32⟩
  | .local _ .vmem, ⟨6, _⟩ => ⟨S6000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  inb_S6000x6_S6000x6_0_0 : ∀ a, (![0, 0] : Fin 2 → Nat) a + S6000x6.size a ≤ S6000x6.size a
  h_S6000x6 : 0 < S6000x6.numel
  bitsLt_bf16_f32 : FTy.bits .bf16 < FTy.bits .f32
  inb_S128x6_S128x6_0_0 : ∀ a, (![0, 0] : Fin 2 → Nat) a + S128x6.size a ≤ S128x6.size a
  h_S128x6 : 0 < S128x6.numel
  transposes_S128x6_p1_0_S6x128 : S128x6.Transposes [1, 0] S6x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  dot_S6000x6_S6x128_S6000x128_1_0_0_1_n_n_wf : DotDims.WF S6000x6 S6x128 S6000x128 [1] [0] [0] [1] [] []
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .f32 = 32 ∨ (Rect.block (s := S600000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x6.size a ≤ S600000x6.size a
  hwx0_1 : ∀ i : grid0.Coords, EltTy.bits .f32 = 32 ∨ (Rect.block (s := S600000x6) S6000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x6.size a ≤ S128x6.size a
  hwx0_2 : ∀ i : grid0.Coords, EltTy.bits .f32 = 32 ∨ (Rect.block (s := S128x6) S128x6.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x128.size a ≤ S600000x128.size a
  hwx0_3 : ∀ i : grid0.Coords, EltTy.bits .f32 = 32 ∨ (Rect.block (s := S600000x128) S6000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x6_S6x128_S6000x128_1_0_0_1_n_n : DotDims S6000x6 S6x128 S6000x128 where
  lhsContracting := [1]
  rhsContracting := [0]
  lhsNonContracting := [0]
  rhsNonContracting := [1]
  lhsBatch := []
  rhsBatch := []
  wf := dot_S6000x6_S6x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x6.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S6000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000x6 : Shape := ⟨2, ![600000, 6]⟩
abbrev S2x600000 : Shape := ⟨2, ![2, 600000]⟩
abbrev S128x6 : Shape := ⟨2, ![128, 6]⟩
abbrev S128x128 : Shape := ⟨2, ![128, 128]⟩
abbrev S128 : Shape := ⟨1, ![128]⟩
abbrev S6x128 : Shape := ⟨2, ![6, 128]⟩
abbrev S600000x128 : Shape := ⟨2, ![600000, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x6, .f32⟩
  | .hbm, ⟨2, _⟩ => ⟨S2x600000, .i32⟩
  | .hbm, ⟨3, _⟩ => ⟨S128x6, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S6x128, .f32⟩
  | .hbm, ⟨9, _⟩ => ⟨S600000x128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S50000x128, .f32⟩
  | .hbm, ⟨35, _⟩ => ⟨S128x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S128x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]

class Facts₀ : Prop where
  transposes_S128x6_S6x128_1_0 : S128x6.Transposes [1, 0] S6x128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S600000x6_S6x128_S600000x128_1_0_0_1_n_n_wf : DotDims.WF S600000x6 S6x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def dot_S600000x6_S6x128_S600000x128_1_0_0_1_n_n : DotDims S600000x6 S6x128 S600000x128 where
  lhsContracting := [1]
  rhsContracting := [0]
  lhsNonContracting := [0]
  rhsNonContracting := [1]
  lhsBatch := []
  rhsBatch := []
  wf := dot_S600000x6_S6x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run with its result named.

  The program is two pipelined regions among three stretches of host operations. Its run is the launch of those segments
  one after the other; at the end every buffer the host can see holds the last boundary's contents, so the result buffer
  holds what the second region's write-backs left in it and every argument holds what it was launched with.
-/
import proofs.«103668_j3822520894069_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with the
    result buffer at the last boundary's contents and the eight arguments as launched. -/
theorem run_result : θ_run defs (onTc (τ := τ) (main (F := F))) ⟨m, fun _ => 0, ρ⟩ (fun r => ∀ c : Dev nD,
      r.2.mem ((c.tc : Thread nD τ).loc main_v22) = W4 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v22 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.EdgeNodeSpec.lean ====
/-
  The mathematics both programs compute, stated once over any number of rows.

  An edge's message at (edge p, channel q) is the gathered source feature times the radial embedding,
      xg(p,q) · Σ_k rbf(p,k) · w(q,k)          (k over the 6 radial basis functions),
  and a node's update at (node p, channel q) is a two-layer perceptron with the SiLU activation between the layers,
      Σ_k silu( Σ_a out(p,a) · W1(k,a) + b1 k ) · W2(q,k) + b2 q ,      silu h = h · logistic h .
  Both are row-local: row p of the result reads row p of the row-indexed operands only, so the same formula describes
  a block of rows and the whole array.  Everything is on the extended reals, with the operations' orders kept as both
  programs spell them (no law of arithmetic is used anywhere, so no finiteness either).
-/
import Idealize.ShloMosaic.PureOps.Ideal
import Idealize.ShloMosaic.Lib.ValueIdx

noncomputable section

namespace Cert.EdgeNode

open Idealize.ShloMosaic Idealize.ShloMosaic.ValueIdx

/-- SiLU on the extended reals: `h · logistic h`, with `logistic h = 1 / (1 + exp (-h))`. -/
def silu (h : EReal) : EReal := h * Ideal.logistic h

/-- The message of edge `p` in channel `q`: the gathered feature times the radial embedding `Σ_k rbf(p,k) · w(q,k)`. -/
def edgeAt {R : Nat} (xg : FVec Ideal ⟨2, ![R, 128]⟩ .f32) (rbf : FVec Ideal ⟨2, ![R, 6]⟩ .f32)
    (w : FVec Ideal ⟨2, ![128, 6]⟩ .f32) (p : Fin R) (q : Fin 128) : EReal :=
  xg (ix2 p q) * ∑ k : Fin 6, rbf (ix2 p k) * w (ix2 q k)

/-- The hidden layer of node `p` in unit `k`: `Σ_a out(p,a) · W1(k,a) + b1 k`. -/
def hiddenAt {R : Nat} (out : FVec Ideal ⟨2, ![R, 128]⟩ .f32) (w1 : FVec Ideal ⟨2, ![128, 128]⟩ .f32)
    (b1 : Fin 128 → EReal) (p : Fin R) (k : Fin 128) : EReal :=
  (∑ a : Fin 128, out (ix2 p a) * w1 (ix2 k a)) + b1 k

/-- The update of node `p` in channel `q`: `Σ_k silu (hidden p k) · W2(q,k) + b2 q`. -/
def mlpAt {R : Nat} (out : FVec Ideal ⟨2, ![R, 128]⟩ .f32) (w1 : FVec Ideal ⟨2, ![128, 128]⟩ .f32)
    (b1 : Fin 128 → EReal) (w2 : FVec Ideal ⟨2, ![128, 128]⟩ .f32) (b2 : Fin 128 → EReal) (p : Fin R) (q : Fin 128) : EReal :=
  (∑ k : Fin 128, silu (hiddenAt out w1 b1 p k) * w2 (ix2 q k)) + b2 q

/-! ## Row-locality

An edge message reads its three operands at the edge's own row (and the channel's weight row) only, and a node update
reads the node's own row, the two weight matrices and the biases at the channel: operands that agree there give the same
value, whatever the numbers of rows of the two sides. This is what lets a block of rows stand for the whole array. -/

theorem edgeAt_congr {R R' : Nat} (xg : FVec Ideal ⟨2, ![R, 128]⟩ .f32) (rbf : FVec Ideal ⟨2, ![R, 6]⟩ .f32)
    (w : FVec Ideal ⟨2, ![128, 6]⟩ .f32) (xg' : FVec Ideal ⟨2, ![R', 128]⟩ .f32) (rbf' : FVec Ideal ⟨2, ![R', 6]⟩ .f32)
    (w' : FVec Ideal ⟨2, ![128, 6]⟩ .f32) (p : Fin R) (q : Fin 128) (p' : Fin R') (q' : Fin 128)
    (h0 : xg (ix2 p q) = xg' (ix2 p' q')) (h1 : ∀ k, rbf (ix2 p k) = rbf' (ix2 p' k)) (h2 : ∀ k, w (ix2 q k) = w' (ix2 q' k)) :
    edgeAt xg rbf w p q = edgeAt xg' rbf' w' p' q' := by
  unfold edgeAt
  rw [h0]
  exact congrArg (xg' (ix2 p' q') * ·) (Finset.sum_congr rfl fun k _ => by rw [h1 k, h2 k])

/-- Two hidden values whose operands agree at the entries read are equal. -/
theorem hiddenAt_congr {R R' : Nat} (out : FVec Ideal ⟨2, ![R, 128]⟩ .f32) (w1 : FVec Ideal ⟨2, ![128, 128]⟩ .f32)
    (b1 : Fin 128 → EReal) (out' : FVec Ideal ⟨2, ![R', 128]⟩ .f32) (w1' : FVec Ideal ⟨2, ![128, 128]⟩ .f32)
    (b1' : Fin 128 → EReal) (p : Fin R) (p' : Fin R') (k : Fin 128)
    (h0 : ∀ a, out (ix2 p a) = out' (ix2 p' a)) (h1 : ∀ a, w1 (ix2 k a) = w1' (ix2 k a)) (h2 : b1 k = b1' k) :
    hiddenAt out w1 b1 p k = hiddenAt out' w1' b1' p' k := by
  unfold hiddenAt
  rw [h2]
  exact congrArg (· + b1' k) (Finset.sum_congr rfl fun a _ => by rw [h0 a, h1 a])

/-- Two node updates whose operands agree at the entries read are equal. -/
theorem mlpAt_congr {R R' : Nat} (out : FVec Ideal ⟨2, ![R, 128]⟩ .f32) (w1 : FVec Ideal ⟨2, ![128, 128]⟩ .f32)
    (b1 : Fin 128 → EReal) (w2 : FVec Ideal ⟨2, ![128, 128]⟩ .f32) (b2 : Fin 128 → EReal)
    (out' : FVec Ideal ⟨2, ![R', 128]⟩ .f32) (w1' : FVec Ideal ⟨2, ![128, 128]⟩ .f32) (b1' : Fin 128 → EReal)
    (w2' : FVec Ideal ⟨2, ![128, 128]⟩ .f32) (b2' : Fin 128 → EReal) (p : Fin R) (q : Fin 128) (p' : Fin R') (q' : Fin 128)
    (h0 : ∀ a, out (ix2 p a) = out' (ix2 p' a)) (h1 : ∀ k a, w1 (ix2 k a) = w1' (ix2 k a)) (h2 : ∀ k, b1 k = b1' k)
    (h3 : ∀ k, w2 (ix2 q k) = w2' (ix2 q' k)) (h4 : b2 q = b2' q') :
    mlpAt out w1 b1 w2 b2 p q = mlpAt out' w1' b1' w2' b2' p' q' := by
  unfold mlpAt
  rw [h4]
  exact congrArg (· + b2' q') (Finset.sum_congr rfl fun k _ => by
    rw [hiddenAt_congr out w1 b1 out' w1' b1' p p' k h0 (h1 k) (h2 k), h3 k])

end Cert.EdgeNode

end
-- ==== Proof.BlockValues.lean ====
/-
  What each of the two kernel bodies leaves in its output block, read at an entry (p, q) of the block.

  The first body multiplies a block of gathered features, entry by entry, by the product of the block's radial basis rows
  with the transposed embedding weights; read at (p, q) that is the edge message `edgeAt` of row p, channel q. The second
  body is the two-layer perceptron on a block of 5000 nodes; read at (p, q) it is `mlpAt`. On the extended reals a
  change of float format is the identity, a matrix product into a zero accumulator is the plain sum over the contracted
  axis, and a transposed matrix read at (k, q) is the matrix at (q, k); nothing else is used.
-/
import proofs.«103668_j3822520894069_1_alg».proof.Proof.Gen.KernelIdeal.Frame
import proofs.«103668_j3822520894069_1_alg».proof.Proof.EdgeNodeSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bodies

open Cert.KernelIdeal Cert.KernelIdeal.Gen Idealize.ShloMosaic Idealize.ShloMosaic.ValueIdx Cert.EdgeNode

/-- The zero offset of a whole-block access, as a function. -/
theorem hz : (![0, 0] : Fin 2 → Nat) = fun _ => 0 := funext fun a => by fin_cases a <;> rfl

/-- In the radial product, output entry `i` reads the left operand in `i`'s own row. -/
theorem rbf_l0 (i : S6000x128.Idx) (q : dot_S6000x6_S6x128_S6000x128_1_0_0_1_n_n.contr.Idx) :
    (dot_S6000x6_S6x128_S6000x128_1_0_0_1_n_n.lhsIdx i q 0).val = (i 0).val := by
  unfold DotDims.lhsIdx
  rw [dif_neg (show ¬(0 : Fin S6000x6.rank) ∈ dot_S6000x6_S6x128_S6000x128_1_0_0_1_n_n.lhsBatch by decide), dif_pos (show (0 : Fin S6000x6.rank) ∈ dot_S6000x6_S6x128_S6000x128_1_0_0_1_n_n.lhsNonContracting by decide)]
  rfl
/-- In the radial product, output entry `i` reads the right operand in `i`'s own column. -/
theorem rbf_r1 (i : S6000x128.Idx) (q : dot_S6000x6_S6x128_S6000x128_1_0_0_1_n_n.contr.Idx) :
    (dot_S6000x6_S6x128_S6000x128_1_0_0_1_n_n.rhsIdx i q 1).val = (i 1).val := by
  unfold DotDims.rhsIdx
  rw [dif_neg (show ¬(1 : Fin S6x128.rank) ∈ dot_S6000x6_S6x128_S6000x128_1_0_0_1_n_n.rhsBatch by decide), dif_pos (show (1 : Fin S6x128.rank) ∈ dot_S6000x6_S6x128_S6000x128_1_0_0_1_n_n.rhsNonContracting by decide)]
  rfl

/-- The radial embedding of a block: [6000,6] times [6,128] accumulated into zeros, read at (p, q), is `Σ_k l(p,k) · r(k,q)` over the 6 radial functions. -/
theorem rbfEmbed_apply (l : FVec Ideal S6000x6 .bf16) (r : FVec Ideal S6x128 .bf16) (p : Fin 6000) (q : Fin 128) :
    matmul dot_S6000x6_S6x128_S6000x128_1_0_0_1_n_n none l r (constant S6000x128 .f32 0x00000000#32) (ix2 p q)
      = ∑ k : Fin 6, l (ix2 p k) * r (ix2 k q) := by
  refine (Ideal.matmul_constant_zero_apply dot_S6000x6_S6x128_S6000x128_1_0_0_1_n_n none l r (ix2 p q)).trans ?_
  rw [← Equiv.sum_comp (contrEquiv1 dot_S6000x6_S6x128_S6000x128_1_0_0_1_n_n 6 rfl rfl).symm]
  refine Finset.sum_congr rfl fun k _ => ?_
  have hk := contrEquiv1_symm_val dot_S6000x6_S6x128_S6000x128_1_0_0_1_n_n 6 rfl rfl k
  have el : dot_S6000x6_S6x128_S6000x128_1_0_0_1_n_n.lhsIdx (ix2 p q) ((contrEquiv1 dot_S6000x6_S6x128_S6000x128_1_0_0_1_n_n 6 rfl rfl).symm k) = ix2 p k := funext fun a => Fin.ext (by
    match a with
    | ⟨0, _⟩ => exact rbf_l0 _ _
    | ⟨1, _⟩ => exact (dot_S6000x6_S6x128_S6000x128_1_0_0_1_n_n.lhsIdx_val_of_single rfl _ _).trans hk)
  have er : dot_S6000x6_S6x128_S6000x128_1_0_0_1_n_n.rhsIdx (ix2 p q) ((contrEquiv1 dot_S6000x6_S6x128_S6000x128_1_0_0_1_n_n 6 rfl rfl).symm k) = ix2 k q := funext fun a => Fin.ext (by
    match a with
    | ⟨0, _⟩ => exact (dot_S6000x6_S6x128_S6000x128_1_0_0_1_n_n.rhsIdx_val_of_single rfl _ _).trans hk
    | ⟨1, _⟩ => exact rbf_r1 _ _)
  rw [el, er]

/-- The first body's output block at (p, q) is the edge message of row p, channel q, of its three input blocks. -/
theorem edge_block (x0 : Vec Ideal S6000x128 .f32) (x1 : Vec Ideal S6000x6 .f32) (x2 : Vec Ideal S128x6 .f32) (p : Fin 6000) (q : Fin 128) :
    out0_3 (F := Ideal) x0 x1 x2 (ix2 p q) = edgeAt x0 x1 x2 p q := by
  unfold out0_3
  rw [View.canon_unit_zero hz]
  simp only [View.ld_unit_zero (S := S6000x6) hz, View.ld_unit_zero (S := S128x6) hz, View.ld_unit_zero (S := S6000x128) hz]
  unfold k0_pay1 edgeAt
  rw [shapeCast_self]
  refine (mulf_apply _ _ _).trans ?_
  rw [rbfEmbed_apply]
  refine congrArg (x0 (ix2 p q) * ·) (Finset.sum_congr rfl fun k _ => ?_)
  rw [transpose_apply [1, 0] _ transposes_S128x6_p1_0_S6x128 (ix2 k q) (ix2 q k) (fun b => by
    match b with
    | ⟨0, _⟩ => rfl
    | ⟨1, _⟩ => rfl)]
  rfl

/-! ## Region 1 -/

theorem den_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- In a dense layer's product, output entry `i` reads the right operand in `i`'s own column. -/
theorem den_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A dense layer's product on a block: [5000,128] times [128,128] accumulated into zeros, read at (p, q), is `Σ_k l(p,k) · r(k,q)`. -/
theorem dense_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact den_l0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact den_r1 _ _)
  rw [el, er]

/-- A transposed weight matrix read at (k, q) is the matrix at (q, k). -/
theorem weightT_apply (w : FVec Ideal S128x128 .bf16) (k q : Fin 128) :
    transpose S128x128 [1, 0] w transposes_S128x128_p1_0_S128x128 (ix2 k q) = w (ix2 q k) :=
  transpose_apply [1, 0] w transposes_S128x128_p1_0_S128x128 (ix2 k q) (ix2 q k) (fun b => by
    match b with
    | ⟨0, _⟩ => rfl
    | ⟨1, _⟩ => rfl)

/-- A bias row [1,128] spread over the 5000 rows of a block, read at (p, q), is the row at q. -/
theorem biasRow_apply (b : FVec Ideal S1x128 .f32) (p : Fin 5000) (q : Fin 128) :
    broadcastTo S5000x128 (shapeCast S1x128 b shapeCasts_S1x128_S1x128) broadcasts_S1x128_S5000x128 (ix2 p q) = b (ix2 0 q) := by
  rw [shapeCast_self]
  exact broadcastTo_apply b broadcasts_S1x128_S5000x128 (ix2 p q) (ix2 0 q) (fun a => by
    match a with
    | ⟨0, _⟩ => show 0 = if (1 : Nat) = 1 then 0 else _; rw [if_pos rfl]
    | ⟨1, _⟩ => show q.val = if (128 : Nat) = 1 then 0 else q.val; rw [if_neg (by decide)])

/-- The hidden layer of a block of 5000 nodes, as the body computes it. -/
def hiddenVec (x0 : Vec Ideal S5000x128 .f32) (x1 : Vec Ideal S128x128 .f32) (x2 : Vec Ideal S1x128 .f32) : FVec Ideal S5000x128 .f32 :=
  addf (matmul dot_S5000x128_S128x128_S5000x128_1_0_0_1_n_n none
      (truncf .bf16 (shapeCast S5000x128 x0 shapeCasts_S5000x128_S5000x128) bitsLt_bf16_f32)
      (transpose S128x128 [1, 0] (truncf .bf16 x1 bitsLt_bf16_f32) transposes_S128x128_p1_0_S128x128)
      (constant S5000x128 .f32 0x00000000#32))
    (broadcastTo S5000x128 (shapeCast S1x128 x2 shapeCasts_S1x128_S1x128) broadcasts_S1x128_S5000x128)

/-- The body's hidden layer at (p, k) is `Σ_a out(p,a) · W1(k,a) + b1 k`, the bias read from its [1,128] row. -/
theorem hiddenVec_apply (x0 : Vec Ideal S5000x128 .f32) (x1 : Vec Ideal S128x128 .f32) (x2 : Vec Ideal S1x128 .f32) (p : Fin 5000) (k : Fin 128) :
    hiddenVec x0 x1 x2 (ix2 p k) = hiddenAt x0 x1 (fun k => x2 (ix2 0 k)) p k := by
  unfold hiddenVec hiddenAt
  refine (addf_apply _ _ _).trans ?_
  rw [dense_apply, biasRow_apply, shapeCast_self]
  refine congrArg (· + x2 (ix2 0 k)) (Finset.sum_congr rfl fun a _ => ?_)
  rw [weightT_apply]
  rfl

/-- The second body's output block at (p, q) is the node update of row p, channel q, of its five input blocks: the activation is the product of the hidden value with its logistic, the second layer one more product and bias. -/
theorem node_block (x0 : Vec Ideal S5000x128 .f32) (x1 : Vec Ideal S128x128 .f32) (x2 : Vec Ideal S1x128 .f32)
    (x3 : Vec Ideal S128x128 .f32) (x4 : Vec Ideal S1x128 .f32) (p : Fin 5000) (q : Fin 128) :
    out1_5 (F := Ideal) x0 x1 x2 x3 x4 (ix2 p q) = mlpAt x0 x1 (fun k => x2 (ix2 0 k)) x3 (fun k => x4 (ix2 0 k)) p q := by
  unfold out1_5
  rw [View.canon_unit_zero hz]
  simp only [View.ld_unit_zero (S := S5000x128) hz, View.ld_unit_zero (S := S128x128) hz, View.ld_unit_zero (S := S1x128) hz]
  have e : k1_pay1 (F := Ideal) x0 x1 x2 x3 x4 = addf (matmul dot_S5000x128_S128x128_S5000x128_1_0_0_1_n_n none
        (truncf .bf16 (mulf (hiddenVec x0 x1 x2) (logistic (hiddenVec x0 x1 x2))) bitsLt_bf16_f32)
        (transpose S128x128 [1, 0] (truncf .bf16 x3 bitsLt_bf16_f32) transposes_S128x128_p1_0_S128x128)
        (constant S5000x128 .f32 0x00000000#32))
      (broadcastTo S5000x128 (shapeCast S1x128 x4 shapeCasts_S1x128_S1x128) broadcasts_S1x128_S5000x128) := rfl
  rw [e]
  unfold mlpAt
  refine (addf_apply _ _ _).trans ?_
  rw [dense_apply, biasRow_apply]
  refine congrArg (· + x4 (ix2 0 q)) (Finset.sum_congr rfl fun k _ => ?_)
  rw [weightT_apply, ← hiddenVec_apply]
  rfl

end Cert.KernelIdeal.Bodies
end
-- ==== Proof.ArrayValues.lean ====
/-
  From blocks to arrays: what each of the two regions leaves in its output array, whatever the region finds on entry.

  Both regions walk their output array in blocks of whole rows (6000 rows of the 600000 edges; 5000 rows of the 50000
  nodes), block t holding rows t·size … t·size + size − 1; the row-indexed inputs move with the output and the weights
  and biases stay put. Entry (p, q) of block t of an input is therefore the array's entry in the same row as the
  output's, and because an edge message and a node update read their own row only (`edgeAt_congr`, `mlpAt_congr`), what
  point t writes back is block t of ONE function of the whole arrays. The blocks cover the array (row r is in block
  r / size), so the array ends holding that function.
-/
import proofs.«103668_j3822520894069_1_alg».proof.Proof.BlockValues
set_option maxRecDepth 16384

noncomputable section

namespace Cert.KernelIdeal.Arrays

open Cert.KernelIdeal Cert.KernelIdeal.Gen Idealize.ShloMosaic Idealize.ShloMosaic.TcCoe Idealize.ShloMosaic.ValueIdx Cert.EdgeNode Idealize.SL.Sem
open Idealize.ShloMosaic.Pipeline (Dat)
open Cert.KernelIdeal.Bodies

variable (V : (c : Dev nD) → (b : Ref sig .tc) → Buf (Elt Ideal) ((c : Thread nD τ).loc b))

/-- The edge messages of all 600000 edges, from the arrays the first region finds. -/
def edgesOf (c : Dev nD) : S600000x128.Idx → EReal := fun i =>
  edgeAt (R := 600000) (V c main_v10) (V c main_arg1) (V c main_arg3) (i 0) (i 1)

/-- The block positions over the 100 grid points of the first region: the gathered rows and the radial rows move with the output, in column block 0; the embedding weights stay at block (0, 0). -/
theorem idx_facts0 : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 99 :=
  (by decide +kernel : ∀ t : Fin grid0.N, _)

/-- Every one of the 100 row blocks of the edge array is some grid point's output block. -/
theorem idx_onto0 : ∀ (q0 : Fin 100), ∃ t : Fin cfg0.N, win0_3.index t = ![q0.val, 0] :=
  (by decide +kernel : ∀ (q0 : Fin 100), ∃ t : Fin grid0.N, win0_3.index t = ![q0.val, 0])

/-- Where entry (p, q) of point t's output block sits in the array of all edges. -/
abbrev at0 (t : Fin cfg0.N) (p : Fin 6000) (q : Fin 128) : S600000x128.Idx := ((cfg0.win 3).blk t).view.emb (ix2 p q)

/-- Entry (p, q) of point t's block of gathered rows is the array's entry at the output entry's own position. -/
theorem read0_0 (c : Dev nD) (t : Fin cfg0.N) (p : Fin 6000) (q : Fin 128) :
    iblk0 V c 0 t (ix2 p q) = V c main_v10 (ix2 (at0 t p q 0) (at0 t p q 1)) := by
  obtain ⟨e0, e1, e2, e3, e4, e5, e6, e7⟩ := idx_facts0 t
  show V c main_v10 (((cfg0.win 0).blk t).view.emb (ix2 p q)) = V c main_v10 (ix2 (at0 t p q 0) (at0 t p q 1))
  refine congrArg (V c main_v10) (funext fun a => Fin.ext ?_)
  match a with
  | ⟨0, _⟩ => show win0_0.index t (0 : Fin 2) * 6000 + 1 * p.val = win0_3.index t (0 : Fin 2) * 6000 + 1 * p.val; omega
  | ⟨1, _⟩ => show win0_0.index t (1 : Fin 2) * 128 + 1 * q.val = win0_3.index t (1 : Fin 2) * 128 + 1 * q.val; omega

/-- Entry (p, k) of point t's block of radial rows is the array's entry in the output entry's row. -/
theorem read0_1 (c : Dev nD) (t : Fin cfg0.N) (p : Fin 6000) (q : Fin 128) (k : Fin 6) :
    iblk0 V c 1 t (ix2 p k) = V c main_arg1 (ix2 (at0 t p q 0) k) := by
  obtain ⟨e0, e1, e2, e3, e4, e5, e6, e7⟩ := idx_facts0 t
  show V c main_arg1 (((cfg0.win 1).blk t).view.emb (ix2 p k)) = V c main_arg1 (ix2 (at0 t p q 0) k)
  refine congrArg (V c main_arg1) (funext fun a => Fin.ext ?_)
  match a with
  | ⟨0, _⟩ => show win0_1.index t (0 : Fin 2) * 6000 + 1 * p.val = win0_3.index t (0 : Fin 2) * 6000 + 1 * p.val; omega
  | ⟨1, _⟩ => show win0_1.index t (1 : Fin 2) * 6 + 1 * k.val = k.val; omega

/-- Entry (q, k) of the embedding weights' one block is the weights' entry in the output entry's channel row. -/
theorem read0_2 (c : Dev nD) (t : Fin cfg0.N) (p : Fin 6000) (q : Fin 128) (k : Fin 6) :
    iblk0 V c 2 t (ix2 q k) = V c main_arg3 (ix2 (at0 t p q 1) k) := by
  obtain ⟨e0, e1, e2, e3, e4, e5, e6, e7⟩ := idx_facts0 t
  show V c main_arg3 (((cfg0.win 2).blk t).view.emb (ix2 q k)) = V c main_arg3 (ix2 (at0 t p q 1) k)
  refine congrArg (V c main_arg3) (funext fun a => Fin.ext ?_)
  match a with
  | ⟨0, _⟩ => show win0_2.index t (0 : Fin 2) * 128 + 1 * q.val = win0_3.index t (1 : Fin 2) * 128 + 1 * q.val; omega
  | ⟨1, _⟩ => show win0_2.index t (1 : Fin 2) * 6 + 1 * k.val = k.val; omega

/-- What point t writes back is block t of the array of all edge messages. -/
theorem flushed0 (c : Dev nD) (t : Fin cfg0.N) :
    (dat0 V c).flushed 3 t = ((cfg0.win 3).blk t).view.read (Elt Ideal) (edgesOf V c) := by
  show (cfg0.win 3).cut (grid0.coords t) ((dat0 V c).after 3 t) = _
  rw [after0_3]
  funext y
  revert y
  show ∀ y : S6000x128.Idx, out0_3 (iblk0 V c 0 t) (iblk0 V c 1 t) (iblk0 V c 2 t) y = edgesOf V c (((cfg0.win 3).blk t).view.emb y)
  intro y
  obtain ⟨p, q, rfl⟩ : ∃ (p : Fin 6000) (q : Fin 128), y = ix2 p q := ⟨y 0, y 1, eq_ix2 y⟩
  rw [edge_block]
  show edgeAt (iblk0 V c 0 t) (iblk0 V c 1 t) (iblk0 V c 2 t) p q
    = edgeAt (R := 600000) (V c main_v10) (V c main_arg1) (V c main_arg3) (at0 t p q 0) (at0 t p q 1)
  exact edgeAt_congr _ _ _ _ _ _ p q _ _ (read0_0 V c t p q) (fun k => read0_1 V c t p q k) (fun k => read0_2 V c t p q k)

/-- An edge-array index is in point t's output block iff each coordinate is in the block's range on its axis. -/
theorem mem_blk0 (t : Fin cfg0.N) (i : S600000x128.Idx) :
    i ∈ ((cfg0.win 3).blk t).view.set ↔ ∀ a : Fin 2, win0_3.index t a * S6000x128.size a ≤ (i a).val ∧ (i a).val < win0_3.index t a * S6000x128.size a + S6000x128.size a := by
  show i ∈ ((View.whole main_v11).slice (win0_3.rect t)).set ↔ _
  rw [View.set_slice_whole, Rect.mem_set_unit]
  exact Iff.rfl

/-- The output blocks cover the edge array: row r is in block r / 6000. -/
theorem cover0 (i : S600000x128.Idx) : ∃ t : Fin cfg0.N, (cfg0.win 3).flush t = true ∧ i ∈ ((cfg0.win 3).blk t).view.set := by
  have hi0 : (i 0).val < 600000 := (i 0).isLt
  have hi1 : (i 1).val < 128 := (i 1).isLt
  obtain ⟨t, ht⟩ := idx_onto0 ⟨(i 0).val / 6000, by omega⟩
  have q0 : win0_3.index t (0 : Fin 2) = (i 0).val / 6000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 6000 ≤ (i 0).val ∧ (i 0).val < win0_3.index t (0 : Fin 2) * 6000 + 6000; omega
  | ⟨1, _⟩ => show win0_3.index t (1 : Fin 2) * 128 ≤ (i 1).val ∧ (i 1).val < win0_3.index t (1 : Fin 2) * 128 + 128; omega

/-- The first region leaves the array of edge messages. -/
theorem edges_final (c : Dev nD) : (dat0 V c).arrAt 3 cfg0.N = edgesOf V c :=
  (dat0 V c).arrAt_eq_of_cover 3 (edgesOf V c) (fun t _ => flushed0 V c t) cover0

/-! ## The second region: the node updates -/

/-- The updates of all 50000 nodes, from the arrays the second region finds (the biases as [1,128] rows). -/
def nodesOf (c : Dev nD) : S50000x128.Idx → EReal := fun i =>
  mlpAt (R := 50000) (V c main_v19) (V c main_arg4) (fun k => V c main_v20 (ix2 0 k)) (V c main_arg6)
    (fun k => V c main_v21 (ix2 0 k)) (i 0) (i 1)

/-- The block positions over the 10 grid points of the second region: the scattered sums move with the output, in column block 0; the two weight matrices and the two bias rows stay at block (0, 0). -/
theorem idx_facts1 : ∀ t : Fin cfg1.N, win1_0.index t (0 : Fin 2) = win1_5.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 :=
  (by decide +kernel : ∀ t : Fin grid1.N, _)

/-- Every one of the 10 row blocks of the node array is some grid point's output block. -/
theorem idx_onto1 : ∀ (q0 : Fin 10), ∃ t : Fin cfg1.N, win1_5.index t = ![q0.val, 0] :=
  (by decide +kernel : ∀ (q0 : Fin 10), ∃ t : Fin grid1.N, win1_5.index t = ![q0.val, 0])

/-- Where entry (p, q) of point t's output block sits in the array of all nodes. -/
abbrev at1 (t : Fin cfg1.N) (p : Fin 5000) (q : Fin 128) : S50000x128.Idx := ((cfg1.win 5).blk t).view.emb (ix2 p q)

/-- Entry (p, a) of point t's block of scattered sums is the array's entry in the output entry's row. -/
theorem read1_0 (c : Dev nD) (t : Fin cfg1.N) (p : Fin 5000) (q : Fin 128) (a : Fin 128) :
    iblk1 V c 0 t (ix2 p a) = V c main_v19 (ix2 (at1 t p q 0) a) := by
  obtain ⟨e0, e1, e2, e3, e4, e5, e6, e7, e8, e9, e10⟩ := idx_facts1 t
  show V c main_v19 (((cfg1.win 0).blk t).view.emb (ix2 p a)) = V c main_v19 (ix2 (at1 t p q 0) a)
  refine congrArg (V c main_v19) (funext fun d => Fin.ext ?_)
  match d with
  | ⟨0, _⟩ => show win1_0.index t (0 : Fin 2) * 5000 + 1 * p.val = win1_5.index t (0 : Fin 2) * 5000 + 1 * p.val; omega
  | ⟨1, _⟩ => show win1_0.index t (1 : Fin 2) * 128 + 1 * a.val = a.val; omega

/-- The first layer's weights are read whole: entry (k, a) of their block is their entry (k, a). -/
theorem read1_1 (c : Dev nD) (t : Fin cfg1.N) (k a : Fin 128) :
    iblk1 V c 1 t (ix2 k a) = V c main_arg4 (ix2 k a) := by
  obtain ⟨e0, e1, e2, e3, e4, e5, e6, e7, e8, e9, e10⟩ := idx_facts1 t
  show V c main_arg4 (((cfg1.win 1).blk t).view.emb (ix2 k a)) = V c main_arg4 (ix2 k a)
  refine congrArg (V c main_arg4) (funext fun d => Fin.ext ?_)
  match d with
  | ⟨0, _⟩ => show win1_1.index t (0 : Fin 2) * 128 + 1 * k.val = k.val; omega
  | ⟨1, _⟩ => show win1_1.index t (1 : Fin 2) * 128 + 1 * a.val = a.val; omega

/-- The first bias row is read whole. -/
theorem read1_2 (c : Dev nD) (t : Fin cfg1.N) (k : Fin 128) :
    iblk1 V c 2 t (ix2 0 k) = V c main_v20 (ix2 0 k) := by
  obtain ⟨e0, e1, e2, e3, e4, e5, e6, e7, e8, e9, e10⟩ := idx_facts1 t
  show V c main_v20 (((cfg1.win 2).blk t).view.emb (ix2 0 k)) = V c main_v20 (ix2 0 k)
  refine congrArg (V c main_v20) (funext fun d => Fin.ext ?_)
  match d with
  | ⟨0, _⟩ => show win1_2.index t (0 : Fin 2) * 1 + 1 * 0 = 0; omega
  | ⟨1, _⟩ => show win1_2.index t (1 : Fin 2) * 128 + 1 * k.val = k.val; omega

/-- Entry (q, k) of the second layer's weights' block is the weights' entry in the output entry's channel row. -/
theorem read1_3 (c : Dev nD) (t : Fin cfg1.N) (p : Fin 5000) (q : Fin 128) (k : Fin 128) :
    iblk1 V c 3 t (ix2 q k) = V c main_arg6 (ix2 (at1 t p q 1) k) := by
  obtain ⟨e0, e1, e2, e3, e4, e5, e6, e7, e8, e9, e10⟩ := idx_facts1 t
  show V c main_arg6 (((cfg1.win 3).blk t).view.emb (ix2 q k)) = V c main_arg6 (ix2 (at1 t p q 1) k)
  refine congrArg (V c main_arg6) (funext fun d => Fin.ext ?_)
  match d with
  | ⟨0, _⟩ => show win1_3.index t (0 : Fin 2) * 128 + 1 * q.val = win1_5.index t (1 : Fin 2) * 128 + 1 * q.val; omega
  | ⟨1, _⟩ => show win1_3.index t (1 : Fin 2) * 128 + 1 * k.val = k.val; omega

/-- The second bias row at q is the row at the output entry's channel. -/
theorem read1_4 (c : Dev nD) (t : Fin cfg1.N) (p : Fin 5000) (q : Fin 128) :
    iblk1 V c 4 t (ix2 0 q) = V c main_v21 (ix2 0 (at1 t p q 1)) := by
  obtain ⟨e0, e1, e2, e3, e4, e5, e6, e7, e8, e9, e10⟩ := idx_facts1 t
  show V c main_v21 (((cfg1.win 4).blk t).view.emb (ix2 0 q)) = V c main_v21 (ix2 0 (at1 t p q 1))
  refine congrArg (V c main_v21) (funext fun d => Fin.ext ?_)
  match d with
  | ⟨0, _⟩ => show win1_4.index t (0 : Fin 2) * 1 + 1 * 0 = 0; omega
  | ⟨1, _⟩ => show win1_4.index t (1 : Fin 2) * 128 + 1 * q.val = win1_5.index t (1 : Fin 2) * 128 + 1 * q.val; omega

/-- What point t writes back is block t of the array of all node updates. -/
theorem flushed1 (c : Dev nD) (t : Fin cfg1.N) :
    (dat1 V c).flushed 5 t = ((cfg1.win 5).blk t).view.read (Elt Ideal) (nodesOf V c) := by
  show (cfg1.win 5).cut (grid1.coords t) ((dat1 V c).after 5 t) = _
  rw [after1_5]
  funext y
  revert y
  show ∀ y : S5000x128.Idx, out1_5 (iblk1 V c 0 t) (iblk1 V c 1 t) (iblk1 V c 2 t) (iblk1 V c 3 t) (iblk1 V c 4 t) y
    = nodesOf V c (((cfg1.win 5).blk t).view.emb y)
  intro y
  obtain ⟨p, q, rfl⟩ : ∃ (p : Fin 5000) (q : Fin 128), y = ix2 p q := ⟨y 0, y 1, eq_ix2 y⟩
  rw [node_block]
  show mlpAt (iblk1 V c 0 t) (iblk1 V c 1 t) (fun k => iblk1 V c 2 t (ix2 0 k)) (iblk1 V c 3 t) (fun k => iblk1 V c 4 t (ix2 0 k)) p q
    = mlpAt (R := 50000) (V c main_v19) (V c main_arg4) (fun k => V c main_v20 (ix2 0 k)) (V c main_arg6)
        (fun k => V c main_v21 (ix2 0 k)) (at1 t p q 0) (at1 t p q 1)
  exact mlpAt_congr _ _ _ _ _ _ _ _ _ _ p q _ _ (fun a => read1_0 V c t p q a) (fun k a => read1_1 V c t k a)
    (fun k => read1_2 V c t k) (fun k => read1_3 V c t p q k) (read1_4 V c t p q)

/-- A node-array index is in point t's output block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v22).slice (win1_5.rect t)).set ↔ _
  rw [View.set_slice_whole, Rect.mem_set_unit]
  exact Iff.rfl

/-- The output blocks cover the node array: row r is in block r / 5000. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The second region leaves the array of node updates. -/
theorem nodes_final (c : Dev nD) : (dat1 V c).arrAt 5 cfg1.N = nodesOf V c :=
  (dat1 V c).arrAt_eq_of_cover 5 (nodesOf V c) (fun t _ => flushed1 V c t) cover1

end Cert.KernelIdeal.Arrays
end
-- ==== Proof.ReferenceValue.lean ====
/-
  The reference program's result, read at an entry, is the same two formulas.

  Its per-edge product (a gather of the source rows times `rbf · W_rbfᵀ`) read at (p, q) is the edge message `edgeAt` of the
  gathered rows, and its result read at (p, q) is the node update `mlpAt` of the scattered sums, the SiLU spelt as
  `h · (1 / (1 + exp (-h)))`, which is `h · logistic h` on the extended reals by the definition of the logistic there.
  The gather and the scatter-add are carried as they are: nothing is read through them.
-/
import proofs.«103668_j3822520894069_1_alg».proof.Proof.Gen.ReferenceIdeal.Read
import proofs.«103668_j3822520894069_1_alg».proof.Proof.EdgeNodeSpec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Cert.EdgeNode

/-- The SiLU as jax expands it on the host is `silu`: the literal one is the real one, and the logistic on the extended
    reals is by definition `1 / (1 + exp (-h))`. -/
theorem silu_host (h : EReal) :
    h * Ideal.div (Ideal.ofBits .f32 0x3F800000#32) (Ideal.ofBits .f32 0x3F800000#32 + Ideal.exp (-h)) = silu h := by
  rw [Ideal.ofBits_one_f32]
  rfl

/-- The per-edge product at (p, q). -/
theorem messages_apply (x0 : (⟨S50000x128, .f32⟩ : BufTy).Contents (Elt Ideal)) (x1 : (⟨S600000x6, .f32⟩ : BufTy).Contents (Elt Ideal))
    (x2 : (⟨S2x600000, .i32⟩ : BufTy).Contents (Elt Ideal)) (x3 : (⟨S128x6, .f32⟩ : BufTy).Contents (Elt Ideal)) (p : Fin 600000) (q : Fin 128) :
    val_main_v13 (F := Ideal) x0 x1 x2 x3 (ix2 p q) = edgeAt (R := 600000) (val_main_v12 (F := Ideal) x0 x2) x1 x3 p q := by
  have el : ∀ k, lidx_main_v1 (ix2 p q) k = ix2 p k := fun k => funext fun a => Fin.ext (by
    match a with
    | ⟨0, _⟩ => rfl
    | ⟨1, _⟩ => rfl)
  have er : ∀ k, idx_main_v0 (ridx_main_v1 (ix2 p q) k) = ix2 q k := fun k => funext fun a => Fin.ext (by
    match a with
    | ⟨0, _⟩ => rfl
    | ⟨1, _⟩ => rfl)
  rw [val_main_v13_apply, val_main_v1_apply]
  unfold edgeAt
  refine congrArg (val_main_v12 (F := Ideal) x0 x2 (ix2 p q) * ·) (Finset.sum_congr rfl fun k _ => ?_)
  rw [val_main_v0_apply, el, er]

/-- The array of per-edge products is the array of edge messages. -/
theorem messages_eq (x0 : (⟨S50000x128, .f32⟩ : BufTy).Contents (Elt Ideal)) (x1 : (⟨S600000x6, .f32⟩ : BufTy).Contents (Elt Ideal))
    (x2 : (⟨S2x600000, .i32⟩ : BufTy).Contents (Elt Ideal)) (x3 : (⟨S128x6, .f32⟩ : BufTy).Contents (Elt Ideal)) :
    val_main_v13 (F := Ideal) x0 x1 x2 x3 = fun i => edgeAt (R := 600000) (val_main_v12 (F := Ideal) x0 x2) x1 x3 (i 0) (i 1) := by
  funext i
  obtain ⟨p, q, rfl⟩ : ∃ (p : Fin 600000) (q : Fin 128), i = ix2 p q := ⟨i 0, i 1, eq_ix2 i⟩
  exact messages_apply x0 x1 x2 x3 p q

/-- The hidden layer at (p, k), before the activation. -/
theorem hidden_apply (x0 : (⟨S50000x128, .f32⟩ : BufTy).Contents (Elt Ideal)) (x1 : (⟨S600000x6, .f32⟩ : BufTy).Contents (Elt Ideal))
    (x2 : (⟨S2x600000, .i32⟩ : BufTy).Contents (Elt Ideal)) (x3 : (⟨S128x6, .f32⟩ : BufTy).Contents (Elt Ideal))
    (x4 : (⟨S128x128, .f32⟩ : BufTy).Contents (Elt Ideal)) (x5 : (⟨S128, .f32⟩ : BufTy).Contents (Elt Ideal)) (p : Fin 50000) (k : Fin 128) :
    val_main_v26 (F := Ideal) x0 x1 x2 x3 x4 x5 (ix2 p k)
      = hiddenAt (R := 50000) (val_main_v21 (F := Ideal) x0 x1 x2 x3) x4 (fun k => x5 (ix1 k)) p k := by
  have el : ∀ a, lidx_main_v23 (ix2 p k) a = ix2 p a := fun a => funext fun d => Fin.ext (by
    match d with
    | ⟨0, _⟩ => rfl
    | ⟨1, _⟩ => rfl)
  have er : ∀ a, idx_main_v22 (ridx_main_v23 (ix2 p k) a) = ix2 k a := fun a => funext fun d => Fin.ext (by
    match d with
    | ⟨0, _⟩ => rfl
    | ⟨1, _⟩ => rfl)
  have eb : idx_main_v24 (idx_main_v25 (ix2 p k)) = ix1 k := funext fun d => Fin.ext (by
    match d with
    | ⟨0, _⟩ => rfl)
  rw [val_main_v26_apply, val_main_v23_apply, val_main_v25_apply, val_main_v24_apply, eb]
  unfold hiddenAt
  refine congrArg (· + x5 (ix1 k)) (Finset.sum_congr rfl fun a _ => ?_)
  rw [val_main_v22_apply, el, er]

/-- The activated hidden layer at (p, k). -/
theorem activated_apply (x0 : (⟨S50000x128, .f32⟩ : BufTy).Contents (Elt Ideal)) (x1 : (⟨S600000x6, .f32⟩ : BufTy).Contents (Elt Ideal))
    (x2 : (⟨S2x600000, .i32⟩ : BufTy).Contents (Elt Ideal)) (x3 : (⟨S128x6, .f32⟩ : BufTy).Contents (Elt Ideal))
    (x4 : (⟨S128x128, .f32⟩ : BufTy).Contents (Elt Ideal)) (x5 : (⟨S128, .f32⟩ : BufTy).Contents (Elt Ideal)) (p : Fin 50000) (k : Fin 128) :
    val_main_v27 (F := Ideal) x0 x1 x2 x3 x4 x5 (ix2 p k)
      = silu (hiddenAt (R := 50000) (val_main_v21 (F := Ideal) x0 x1 x2 x3) x4 (fun k => x5 (ix1 k)) p k) := by
  rw [val_main_v27_apply, val_main_call0_v5_apply, val_main_call0_v4_apply, val_main_call0_v3_apply, val_main_call0_v2_apply,
    val_main_call0_v1_apply, val_main_call0_v0_apply, val_main_call0_cst_apply, val_main_call0_cst_0_apply, hidden_apply]
  simp only [Ideal.mulf_def, Ideal.hostDivf_def, Ideal.addf_def, Ideal.hostUnary_exp_def, Ideal.hostNegf_def, Ideal.negf_def, Ideal.ofBits_def]
  exact silu_host _

/-- The reference's result at (p, q). -/
theorem update_apply (x0 : (⟨S50000x128, .f32⟩ : BufTy).Contents (Elt Ideal)) (x1 : (⟨S600000x6, .f32⟩ : BufTy).Contents (Elt Ideal))
    (x2 : (⟨S2x600000, .i32⟩ : BufTy).Contents (Elt Ideal)) (x3 : (⟨S128x6, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) (p : Fin 50000) (q : Fin 128) :
    val_main_v32 (F := Ideal) x0 x1 x2 x3 x4 x5 x6 x7 (ix2 p q)
      = mlpAt (R := 50000) (val_main_v21 (F := Ideal) x0 x1 x2 x3) x4 (fun k => x5 (ix1 k)) x6 (fun k => x7 (ix1 k)) p q := by
  have el : ∀ k, lidx_main_v29 (ix2 p q) k = ix2 p k := fun k => funext fun d => Fin.ext (by
    match d with
    | ⟨0, _⟩ => rfl
    | ⟨1, _⟩ => rfl)
  have er : ∀ k, idx_main_v28 (ridx_main_v29 (ix2 p q) k) = ix2 q k := fun k => funext fun d => Fin.ext (by
    match d with
    | ⟨0, _⟩ => rfl
    | ⟨1, _⟩ => rfl)
  have eb : idx_main_v30 (idx_main_v31 (ix2 p q)) = ix1 q := funext fun d => Fin.ext (by
    match d with
    | ⟨0, _⟩ => rfl)
  rw [val_main_v32_apply, val_main_v29_apply, val_main_v31_apply, val_main_v30_apply, eb]
  unfold mlpAt
  refine congrArg (· + x7 (ix1 q)) (Finset.sum_congr rfl fun k _ => ?_)
  rw [val_main_v28_apply, el, er, activated_apply]

end Cert.ReferenceIdeal.RefValue

end
-- ==== Proof.KernelResult.lean ====
/-
  The idealized kernel program's result is the reference's function of the arguments.

  Walking the program from the launch: the host gathers the source rows and the first region turns them into the array of
  edge messages; the host scatter-adds the messages into the nodes and reshapes the biases to rows, and the second region
  turns that into the array of node updates. The gather, the index arithmetic on the edge list and the scatter-add are the
  very operations the reference applies, so they are carried as the reference's own stage functions and never opened; the
  two regions' arrays are the reference's per-edge product and its result, entry by entry, by the two formulas of the
  specification. A bias reshaped [128] → [1,128] read at (0, k) is the bias at k.
-/
import proofs.«103668_j3822520894069_1_alg».proof.Proof.ArrayValues
import proofs.«103668_j3822520894069_1_alg».proof.Proof.ReferenceValue
import Idealize.ShloMosaic.Lib.StableHlo.Run
import Idealize.ShloMosaic.Lib.ValueLayout

set_option maxRecDepth 16384

noncomputable section

namespace Cert.KernelIdeal.Result

open Cert.KernelIdeal Cert.KernelIdeal.Gen Idealize.ShloMosaic Idealize.ShloMosaic.TcCoe Idealize.ShloMosaic.ValueIdx Cert.EdgeNode
open Idealize.SL.Sem Idealize.ShloMosaic.StableHlo
open Cert.KernelIdeal.Arrays

variable (m : (ℓ : Loc nD τ sig) → Buf (Elt Ideal) ℓ) (ρ : Dev nD → PrngReg)

/-! ## What the first region finds -/

/-- The gathered source rows: the reference's gather of the same rows. -/
theorem entry0_gathered (c : Dev nD) :
    V1 m ρ c main_v10 = Cert.ReferenceIdeal.Read.val_main_v12 (F := Ideal) (m ((c : Thread nD τ).loc main_arg0)) (m ((c : Thread nD τ).loc main_arg2)) := by
  show StableHlo.after hostOps0 (W0 m ρ c) (Proc.devRef .tc main_v10) = _
  after_results
  rfl

/-- The radial basis array reaches the first region as launched. -/
theorem entry0_rbf (c : Dev nD) : V1 m ρ c main_arg1 = (m ((c : Thread nD τ).loc main_arg1)) := by
  show StableHlo.after hostOps0 (W0 m ρ c) (Proc.devRef .tc main_arg1) = _
  after_results

/-- So do the embedding weights. -/
theorem entry0_wrbf (c : Dev nD) : V1 m ρ c main_arg3 = (m ((c : Thread nD τ).loc main_arg3)) := by
  show StableHlo.after hostOps0 (W0 m ρ c) (Proc.devRef .tc main_arg3) = _
  after_results

/-! ## Between the regions -/

/-- The target row of the edge list passes the first region untouched. -/
theorem mid_targets (c : Dev nD) :
    W2 m ρ c (Proc.devRef .tc main_v3) = Cert.ReferenceIdeal.Read.val_main_v5 (F := Ideal) (m ((c : Thread nD τ).loc main_arg2)) :=
  (W2_of_ne m ρ c main_v3 (by decide)).trans (by
    show StableHlo.after hostOps0 (W0 m ρ c) (Proc.devRef .tc main_v3) = _
    after_results
    rfl)

/-- The first region's output array is the reference's per-edge product. -/
theorem mid_messages (c : Dev nD) :
    W2 m ρ c (Proc.devRef .tc main_v11)
      = Cert.ReferenceIdeal.Read.val_main_v13 (F := Ideal) (m ((c : Thread nD τ).loc main_arg0)) (m ((c : Thread nD τ).loc main_arg1)) (m ((c : Thread nD τ).loc main_arg2)) (m ((c : Thread nD τ).loc main_arg3)) := by
  refine (W2_arr m ρ c 3).trans ((edges_final (V1 m ρ) c).trans ?_)
  rw [Cert.ReferenceIdeal.RefValue.messages_eq]
  funext i
  exact edgeAt_congr _ _ _ _ _ _ (i 0) (i 1) (i 0) (i 1) (congrFun (entry0_gathered m ρ c) _)
    (fun k => congrFun (entry0_rbf m ρ c) _) (fun k => congrFun (entry0_wrbf m ρ c) _)

/-! ## What the second region finds -/

/-- The scattered sums: the reference's scatter-add of its per-edge products. -/
theorem entry1_scattered (c : Dev nD) :
    V3 m ρ c main_v19 = Cert.ReferenceIdeal.Read.val_main_v21 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v19) = _
  after_results
  rw [mid_targets m ρ c, mid_messages m ρ c]
  rfl

/-- The first layer's weights reach the second region as launched. -/
theorem entry1_w1 (c : Dev nD) : V3 m ρ c main_arg4 = (m ((c : Thread nD τ).loc main_arg4)) := by
  have e : V3 m ρ c main_arg4 = W2 m ρ c (Proc.devRef .tc main_arg4) := by
    show StableHlo.after hostOps1 (W2 m ρ c) (Proc.devRef .tc main_arg4) = _
    after_results
  have e' : W2 m ρ c (Proc.devRef .tc main_arg4) = (m ((c : Thread nD τ).loc main_arg4)) :=
    (W2_of_ne m ρ c main_arg4 (by decide)).trans (by
      show StableHlo.after hostOps0 (W0 m ρ c) (Proc.devRef .tc main_arg4) = _
      after_results)
  rw [e, e']

/-- So do the second layer's. -/
theorem entry1_w2 (c : Dev nD) : V3 m ρ c main_arg6 = (m ((c : Thread nD τ).loc main_arg6)) := by
  have e : V3 m ρ c main_arg6 = W2 m ρ c (Proc.devRef .tc main_arg6) := by
    show StableHlo.after hostOps1 (W2 m ρ c) (Proc.devRef .tc main_arg6) = _
    after_results
  have e' : W2 m ρ c (Proc.devRef .tc main_arg6) = (m ((c : Thread nD τ).loc main_arg6)) :=
    (W2_of_ne m ρ c main_arg6 (by decide)).trans (by
      show StableHlo.after hostOps0 (W0 m ρ c) (Proc.devRef .tc main_arg6) = _
      after_results)
  rw [e, e']

/-- The first bias, reshaped to a row on the host, read at (0, k) is the bias at k. -/
theorem entry1_b1 (c : Dev nD) (k : Fin 128) : V3 m ρ c main_v20 (ix2 0 k) = (m ((c : Thread nD τ).loc main_arg5)) (ix1 k) := by
  have e : V3 m ρ c main_v20 = shapeCast S1x128 (W2 m ρ c (Proc.devRef .tc main_arg5)) shapeCasts_S128_S1x128 := by
    show StableHlo.after hostOps1 (W2 m ρ c) (Proc.devRef .tc main_v20) = _
    after_results
    rfl
  have e5 : W2 m ρ c (Proc.devRef .tc main_arg5) = (m ((c : Thread nD τ).loc main_arg5)) :=
    (W2_of_ne m ρ c main_arg5 (by decide)).trans (by
      show StableHlo.after hostOps0 (W0 m ρ c) (Proc.devRef .tc main_arg5) = _
      after_results)
  rw [e, e5]
  exact shapeCast_a_1a_apply _ _ 0 k

/-- The second bias likewise. -/
theorem entry1_b2 (c : Dev nD) (k : Fin 128) : V3 m ρ c main_v21 (ix2 0 k) = (m ((c : Thread nD τ).loc main_arg7)) (ix1 k) := by
  have e : V3 m ρ c main_v21 = shapeCast S1x128 (W2 m ρ c (Proc.devRef .tc main_arg7)) shapeCasts_S128_S1x128 := by
    show StableHlo.after hostOps1 (W2 m ρ c) (Proc.devRef .tc main_v21) = _
    after_results
    rfl
  have e7 : W2 m ρ c (Proc.devRef .tc main_arg7) = (m ((c : Thread nD τ).loc main_arg7)) :=
    (W2_of_ne m ρ c main_arg7 (by decide)).trans (by
      show StableHlo.after hostOps0 (W0 m ρ c) (Proc.devRef .tc main_arg7) = _
      after_results)
  rw [e, e7]
  exact shapeCast_a_1a_apply _ _ 0 k

/-! ## The result -/

/-- What the second region's write-backs leave in the result buffer is the reference's result term of the arguments. -/
theorem result_eq (c : Dev nD) :
    W4 m ρ c (Proc.devRef .tc main_v22)
      = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((nodes_final (V3 m ρ) c).trans ?_)
  funext i
  obtain ⟨p, q, rfl⟩ : ∃ (p : Fin 50000) (q : Fin 128), i = ix2 p q := ⟨i 0, i 1, eq_ix2 i⟩
  rw [Cert.ReferenceIdeal.RefValue.update_apply]
  exact mlpAt_congr _ _ _ _ _ _ _ _ _ _ p q p q (fun a => congrFun (entry1_scattered m ρ c) _)
    (fun k a => congrFun (entry1_w1 m ρ c) _) (fun k => entry1_b1 m ρ c k)
    (fun k => congrFun (entry1_w2 m ρ c) _) (entry1_b2 m ρ c q)

end Cert.KernelIdeal.Result

end
-- ==== Proof.lean ====
/-
  An edge-conditioned message-passing block: per-edge messages (the gathered source feature times a radial embedding),
  summed into their target nodes, then a two-layer perceptron with the SiLU activation on every node.

  The kernel program computes the per-edge product and the perceptron in two pipelined regions (6000 edges and 5000 nodes
  to a block), with the gather, the scatter-add and the bias reshapes on the host around them; the reference computes
  everything on the host. On the extended reals the two agree operation by operation: a matrix product accumulated into
  zeros is the plain sum over the contracted axis, rounding to a shorter float format is the identity, and
  `h · logistic h` is `h · (1 / (1 + exp (-h)))` by the logistic's definition there. No law of arithmetic is needed, so the
  finiteness of the inputs is never used: the statement holds for all extended-real inputs.

  Modules: EdgeNodeSpec (the two formulas and their row-locality), BlockValues (each kernel body at an entry of its block),
  ArrayValues (from blocks to whole arrays), KernelRun (the kernel program's run with its result named), ReferenceValue
  (the reference's stages at an entry), KernelResult (the kernel program's result is the reference's term).
-/
import proofs.«103668_j3822520894069_1_alg».proof.Defs
import proofs.«103668_j3822520894069_1_alg».proof.Proof.Gen.Kernel
import proofs.«103668_j3822520894069_1_alg».proof.Proof.Gen.Kernel.Skeleton
import proofs.«103668_j3822520894069_1_alg».proof.Proof.Gen.Kernel.Launch
import proofs.«103668_j3822520894069_1_alg».proof.Proof.Gen.Kernel.Points
import proofs.«103668_j3822520894069_1_alg».proof.Proof.Gen.Kernel.Frame
import proofs.«103668_j3822520894069_1_alg».proof.Proof.Gen.KernelIdeal
import proofs.«103668_j3822520894069_1_alg».proof.Proof.Gen.KernelIdeal.Skeleton
import proofs.«103668_j3822520894069_1_alg».proof.Proof.Gen.KernelIdeal.Launch
import proofs.«103668_j3822520894069_1_alg».proof.Proof.Gen.KernelIdeal.Points
import proofs.«103668_j3822520894069_1_alg».proof.Proof.Gen.KernelIdeal.Frame
import proofs.«103668_j3822520894069_1_alg».proof.Proof.Gen.ReferenceIdeal
import proofs.«103668_j3822520894069_1_alg».proof.Proof.Gen.Pre_finite_inputs
import proofs.«103668_j3822520894069_1_alg».proof.Proof.Gen.ReferenceIdeal.Run
import proofs.«103668_j3822520894069_1_alg».proof.Proof.Gen.ReferenceIdeal.Read
import proofs.«103668_j3822520894069_1_alg».proof.Proof.KernelRun
import proofs.«103668_j3822520894069_1_alg».proof.Proof.KernelResult
import Idealize.ShloMosaic.Adequacy
import Idealize.ShloMosaic.Init

noncomputable section

namespace Cert.Proof

open Idealize.ShloMosaic Idealize.SL.Sem

/-- The word-level kernel program terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result buffer at the reference's term of the
    arguments: the kernel program by `KernelResult.result_eq`, the reference by its own run. -/
theorem algebraic : Cert.algebraic_KernelIdeal_ReferenceIdeal := by
  intro m ρ m' ρ' _ hagree
  refine ⟨fun c => Cert.ReferenceIdeal.Read.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Result.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v32_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
